-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S3072x3072 : Shape := ⟨2, ![3072, 3072]⟩
abbrev S3072 : Shape := ⟨1, ![3072]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S3072x3072 : S_.BroadcastsInDim S3072x3072 (![] : Fin 0 → Fin S3072x3072.rank)
  reducesTo_S3072x3072_S_d0_1 : S3072x3072.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S16384x3072 .f32) (main_arg1 : FVec F S3072x3072 .f32) (main_arg2 : FVec F S3072 .f32) (main_arg3 : IVec S3072x3072 32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S3072x3072 .f32 := Host.absf main_arg1
  let main_cst_0 : FVec F S_ .f32 := constant S_ .f32 0x7F800000#32
  let main_v5 : FVec F S3072x3072 .f32 := broadcastInDim S3072x3072 ![] bcast_S_S3072x3072 main_cst_0
  let main_v6 : IVec S3072x3072 1 := cmpf .olt main_v4 main_v5
  let main_c_1 : IVec S_ 1 := constantI S_ 1 1#1
  let main_v7 : IVec S_ 1 := (fun x v => Host.reduce IntOp.andi x v reducesTo_S3072x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S16384x3072 : Shape := ⟨2, ![16384, 3072]⟩
abbrev S3072x3072 : Shape := ⟨2, ![3072, 3072]⟩
abbrev S3072 : Shape := ⟨1, ![3072]⟩
abbrev S1x3072 : Shape := ⟨2, ![1, 3072]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 10
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .i32⟩
  | .hbm, ⟨4, _⟩ => ⟨S3072x3072, .i32⟩
  | .hbm, ⟨5, _⟩ => ⟨S3072x3072, .f32⟩
  | .hbm, ⟨6, _⟩ => ⟨S3072x3072, .f32⟩
  | .hbm, ⟨7, _⟩ => ⟨S3072x3072, .bf16⟩
  | .hbm, ⟨8, _⟩ => ⟨S1x3072, .f32⟩
  | .hbm, ⟨9, _⟩ => ⟨S16384x3072, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S3072x3072_S3072x3072_1_0 : S3072x3072.Transposes [1, 0] S3072x3072
  bitsLt_bf16_f32 : FTy.bits .bf16 < FTy.bits .f32
  shapeCasts_S3072_S1x3072 : S3072.ShapeCasts S1x3072
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x3072.size a
  hwx0_0 : ∀ i : grid0.Coords, EltTy.bits .f32 = 32 ∨ (Rect.block (s := S16384x3072) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x3072.size a
  hwx0_1 : ∀ i : grid0.Coords, EltTy.bits .bf16 = 32 ∨ (Rect.block (s := S3072x3072) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x3072.size a
  hwx0_3 : ∀ i : grid0.Coords, EltTy.bits .f32 = 32 ∨ (Rect.block (s := S16384x3072) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x3072 : Shape := ⟨2, ![16384, 3072]⟩
abbrev S3072x3072 : Shape := ⟨2, ![3072, 3072]⟩
abbrev S3072 : Shape := ⟨1, ![3072]⟩
abbrev S1x3072 : Shape := ⟨2, ![1, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S3072x3072, .f32⟩
  | .hbm, ⟨2, _⟩ => ⟨S3072, .f32⟩
  | .hbm, ⟨3, _⟩ => ⟨S3072x3072, .i32⟩
  | .hbm, ⟨4, _⟩ => ⟨S3072x3072, .i32⟩
  | .hbm, ⟨5, _⟩ => ⟨S3072x3072, .f32⟩
  | .hbm, ⟨6, _⟩ => ⟨S3072x3072, .f32⟩
  | .hbm, ⟨7, _⟩ => ⟨S16384x3072, .f32⟩
  | .hbm, ⟨8, _⟩ => ⟨S1x3072, .f32⟩
  | .hbm, ⟨9, _⟩ => ⟨S16384x3072, .f32⟩
  | .hbm, ⟨10, _⟩ => ⟨S16384x3072, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  transposes_S3072x3072_S3072x3072_1_0 : S3072x3072.Transposes [1, 0] S3072x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  dot_S16384x3072_S3072x3072_S16384x3072_1_0_0_1_n_n_wf : DotDims.WF S16384x3072 S3072x3072 S16384x3072 [1] [0] [0] [1] [] []

variable [Facts₀]

def dot_S16384x3072_S3072x3072_S16384x3072_1_0_0_1_n_n : DotDims S16384x3072 S3072x3072 S16384x3072 where
  lhsContracting := [1]
  rhsContracting := [0]
  lhsNonContracting := [0]
  rhsNonContracting := [1]
  lhsBatch := []
  rhsBatch := []
  wf := dot_S16384x3072_S3072x3072_S16384x3072_1_0_0_1_n_n_wf

class Facts : Prop extends Facts₀ where

variable [Facts]
-- ==== Proof.BlockSum.lean ====
/-
  The arithmetic that joins a blocked matrix product to the whole one, over the extended reals.

  An entry of a product  X · W  is a sum over the contraction index  k < K·n.  Cutting the contraction axis into  n
  blocks of  K  and adding the block sums one after the other, starting from zero, gives the same extended real:
  addition on the extended reals is commutative and associative (with  0  neutral) whatever the summands, the
  infinities included, so no finiteness of the entries is used.

  Arrays are read here at natural-number coordinates (zero outside the array's extents), so that the sums range over
  initial segments of the naturals and block offsets are plain arithmetic.
-/
import Mathlib.Algebra.BigOperators.Fin
import Mathlib.Data.EReal.Basic
import Idealize.ShloMosaic.Lib.ValueIdx

noncomputable section

open Idealize.ShloMosaic Idealize.ShloMosaic.ValueIdx

namespace MaskedGemm

/-- A rank-2 array read at natural-number coordinates: its entry inside the extents, zero outside. -/
def at2 {n0 n1 : ℕ} (A : (⟨2, ![n0, n1]⟩ : Shape).Idx → EReal) (r k : ℕ) : EReal :=
  if h : r < n0 ∧ k < n1 then A (ix2 ⟨r, h.1⟩ ⟨k, h.2⟩) else 0

theorem at2_of_lt {n0 n1 : ℕ} (A : (⟨2, ![n0, n1]⟩ : Shape).Idx → EReal) (r k : ℕ) (hr : r < n0) (hk : k < n1) :
    at2 A r k = A (ix2 ⟨r, hr⟩ ⟨k, hk⟩) := dif_pos ⟨hr, hk⟩

/-- The summand of entry (r, u) of the product  X · W  at contraction index  k. -/
def term {n0 n1 n2 : ℕ} (X : (⟨2, ![n0, n1]⟩ : Shape).Idx → EReal) (W : (⟨2, ![n1, n2]⟩ : Shape).Idx → EReal)
    (r u k : ℕ) : EReal := at2 X r k * at2 W k u

/-- Block sums of width  B  added up over  n  consecutive blocks are the sum over the first  B·n  indices. -/
theorem sum_blocks (B : ℕ) (f : ℕ → EReal) : ∀ n : ℕ,
    ∑ s ∈ Finset.range n, ∑ k ∈ Finset.range B, f (B * s + k) = ∑ k ∈ Finset.range (B * n), f k
  | 0 => by simp
  | n + 1 => by
    rw [Finset.sum_range_succ, sum_blocks B f n, Nat.mul_succ, Finset.sum_range_add]

/-- Six block sums of width 512 are the sum over all 3072 contraction indices. -/
theorem sum_six_blocks (f : ℕ → EReal) :
    ∑ s ∈ Finset.range 6, ∑ k ∈ Finset.range 512, f (512 * s + k) = ∑ k ∈ Finset.range 3072, f k :=
  sum_blocks 512 f 6

/-- THE SPECIFICATION: entry i of  X · W + (bias row), the product's entry as the sum over the whole contraction axis. -/
def result {n0 n1 n2 : ℕ} (X : (⟨2, ![n0, n1]⟩ : Shape).Idx → EReal) (W : (⟨2, ![n1, n2]⟩ : Shape).Idx → EReal)
    (B : (⟨2, ![1, n2]⟩ : Shape).Idx → EReal) (i : (⟨2, ![n0, n2]⟩ : Shape).Idx) : EReal :=
  (∑ k ∈ Finset.range n1, term X W (i 0).val (i 1).val k) + at2 B 0 (i 1).val

end MaskedGemm

end
-- ==== Proof.Pieces.lean ====
/-
  What each control case of the body leaves behind, as a pure term of what it loaded.

  The body has three cases along the contraction axis of the grid.  At the first block of a sweep it clears the
  accumulator and then adds the block product into it; in the middle it adds the block product to what the point
  before left; at the last block it does the same and then writes accumulator plus bias row into the output block.
  Each case ends with whole-buffer stores, so what a buffer holds afterwards is the payload of the last store into it,
  and a load that follows a whole-buffer store reads that store's payload.
-/
import proofs.«137197_j25434796327643_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Middle of a sweep: the accumulator ends at the old accumulator plus this point's block product. -/
theorem acc_mid (c : Dev nD) (i : grid0.Coords) (a3 : Memref sig .tc .vmem S2048x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i)
    (x0 : Vec F S2048x512 .f32) (x1 : Vec F S512x1024 .bf16) (x2 : Vec F S1x1024 .f32) (acc : Vec F S2048x1024 .f32) :
    sout0_B_0 c i a3 h3 a4 h4 a5 h5 a6 h6 a7 h7 hc0 hc1 x0 x1 x2 acc = k0_pay2 x0 acc x1 := by
  unfold sout0_B_0
  rw [View.read_writes_eq_canon _ _ _ (scover0_B_0 c i a3 h3 a4 h4 a5 h5 a6 h6 a7 h7 hc0 hc1 x0 x1 x2 acc)]
  unfold kernelRun0_B
  dsimp only
  rw [View.canon_unit_zero hz]
  simp only [View.readAt_eq_ld, h3.read_unread, h4.read_unread, h5.read_unread, h7.read_unread,
    View.ld_unit_zero (S := S2048x512) hz, View.ld_unit_zero (S := S512x1024) hz, View.ld_unit_zero (S := S2048x1024) hz,
    View.ld_unit_zero (S := S1x1024) hz]

/-- First block of a sweep: the accumulator is cleared, read back, and ends at the cleared value plus the block product. -/
theorem acc_first (c : Dev nD) (i : grid0.Coords) (a3 : Memref sig .tc .vmem S2048x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i)
    (x0 : Vec F S2048x512 .f32) (x1 : Vec F S512x1024 .bf16) (x2 : Vec F S1x1024 .f32) :
    sout0_A_0 c i a3 h3 a4 h4 a5 h5 a6 h6 a7 h7 hc0 hc1 x0 x1 x2 = k0_pay2 x0 (k0_pay1 (F := F)) x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h7.read_unread,
    View.ld_unit_zero (S := S2048x512) hz, View.ld_unit_zero (S := S512x1024) hz, View.ld_unit_zero (S := S2048x1024) hz,
    View.ld_unit_zero (S := S1x1024) hz]

/-- Last block of a sweep, the accumulator: as in the middle. -/
theorem acc_last (c : Dev nD) (i : grid0.Coords) (a3 : Memref sig .tc .vmem S2048x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .f32) (x1 : Vec F S512x1024 .bf16) (x2 : Vec F S1x1024 .f32) (acc : Vec F S2048x1024 .f32) :
    sout0_C_0 c i a3 h3 a4 h4 a5 h5 a6 h6 a7 h7 hc0 hc1 x0 x1 x2 acc = k0_pay2 x0 acc x1 := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero hz]
  simp only [View.readAt_eq_ld, h3.read_unread, h4.read_unread, h5.read_unread, h7.read_unread,
    View.ld_unit_zero (S := S2048x512) hz, View.ld_unit_zero (S := S512x1024) hz, View.ld_unit_zero (S := S2048x1024) hz,
    View.ld_unit_zero (S := S1x1024) hz]

/-- Last block of a sweep, the output block: the new accumulator, read back, plus the bias row. -/
theorem out_last (c : Dev nD) (i : grid0.Coords) (a3 : Memref sig .tc .vmem S2048x512 .f32) (h3 : a3.IsWhole)
    (a4 : Memref sig .tc .vmem S512x1024 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i)
    (x0 : Vec F S2048x512 .f32) (x1 : Vec F S512x1024 .bf16) (x2 : Vec F S1x1024 .f32) (acc : Vec F S2048x1024 .f32) :
    out0_C_3 c i a3 h3 a4 h4 a5 h5 a6 h6 a7 h7 hc0 hc1 x0 x1 x2 acc = k0_pay3 x2 (k0_pay2 x0 acc x1) := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x512) hz, View.ld_unit_zero (S := S512x1024) hz, View.ld_unit_zero (S := S2048x1024) hz,
    View.ld_unit_zero (S := S1x1024) hz]

end Cert.KernelIdeal.Pieces

end
-- ==== Proof.Payload.lean ====
/-
  The body's three stored values read at one index, over the extended reals.

  At the exact instance a change of float format is the identity and the matrix unit's product into a zero accumulator
  is the plain sum of products over the contraction index.  So at entry (p, q) of the 2048 × 1024 block:
    the cleared accumulator is 0;
    the accumulate step leaves  acc(p, q) + Σ_{k < 512} a(p, k) · w(k, q);
    the final step leaves  acc(p, q) + bias(0, q).
-/
import proofs.«137197_j25434796327643_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The cleared accumulator is zero everywhere. -/
theorem cleared_apply (j : S2048x1024.Idx) : k0_pay1 (F := Ideal) j = 0 := by
  unfold k0_pay1
  refine (congrFun (shapeCast_self _ _) j).trans ?_
  exact Ideal.ofBits_zero_f32

/-! The block product's operand indices at an output entry and a contraction index: the left operand is read in the
    output's row at the contraction coordinate, the right operand in the contraction coordinate's row at the output's
    column. -/

theorem lhs_row (i : S2048x1024.Idx) (r : dot_S2048x512_S512x1024_S2048x1024_1_0_0_1_n_n.contr.Idx) : (dot_S2048x512_S512x1024_S2048x1024_1_0_0_1_n_n.lhsIdx i r 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
theorem lhs_col (i : S2048x1024.Idx) (r : dot_S2048x512_S512x1024_S2048x1024_1_0_0_1_n_n.contr.Idx) : (dot_S2048x512_S512x1024_S2048x1024_1_0_0_1_n_n.lhsIdx i r 1).val = (r ⟨0, by decide⟩).val :=
  dot_S2048x512_S512x1024_S2048x1024_1_0_0_1_n_n.lhsIdx_val_of_single rfl i r
theorem rhs_row (i : S2048x1024.Idx) (r : dot_S2048x512_S512x1024_S2048x1024_1_0_0_1_n_n.contr.Idx) : (dot_S2048x512_S512x1024_S2048x1024_1_0_0_1_n_n.rhsIdx i r 0).val = (r ⟨0, by decide⟩).val :=
  dot_S2048x512_S512x1024_S2048x1024_1_0_0_1_n_n.rhsIdx_val_of_single rfl i r
theorem rhs_col (i : S2048x1024.Idx) (r : dot_S2048x512_S512x1024_S2048x1024_1_0_0_1_n_n.contr.Idx) : (dot_S2048x512_S512x1024_S2048x1024_1_0_0_1_n_n.rhsIdx i r 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- The accumulate step at entry (p, q): the old entry plus the sum over the block's 512 contraction indices. -/
theorem accumulate_apply (a : Vec Ideal S2048x512 .f32) (acc : Vec Ideal S2048x1024 .f32) (w : Vec Ideal S512x1024 .bf16)
    (p : Fin 2048) (q : Fin 1024) :
    k0_pay2 a acc w (ix2 p q) = acc (ix2 p q) + ∑ k : Fin 512, a (ix2 p k) * w (ix2 k q) := by
  unfold k0_pay2
  refine (congrFun (shapeCast_self _ _) (ix2 p q)).trans ?_
  refine congrArg (acc (ix2 p q) + ·) ?_
  refine (Ideal.matmul_constant_zero_apply dot_S2048x512_S512x1024_S2048x1024_1_0_0_1_n_n none _ _ (ix2 p q)).trans ?_
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q) ((contrEquiv1 dot_S2048x512_S512x1024_S2048x1024_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x1024_S2048x1024_1_0_0_1_n_n.rhsIdx (ix2 p q) ((contrEquiv1 dot_S2048x512_S512x1024_S2048x1024_1_0_0_1_n_n 512 rfl rfl).symm k) = ix2 k q := funext fun a => Fin.ext (by
    match a with
    | ⟨0, _⟩ => exact (rhs_row _ _).trans hk
    | ⟨1, _⟩ => exact rhs_col _ _)
  rw [el, er, shapeCast_self]
  rfl

/-- The final step at entry (p, q): the accumulator's entry plus the bias row's entry in column q. -/
theorem finish_apply (b : Vec Ideal S1x1024 .f32) (acc : Vec Ideal S2048x1024 .f32) (p : Fin 2048) (q : Fin 1024) :
    k0_pay3 b acc (ix2 p q) = acc (ix2 p q) + b (ix2 (0 : Fin 1) q) := by
  unfold k0_pay3
  refine congrArg (acc (ix2 p q) + ·) ?_
  refine (broadcastTo_1b_ab_apply _ _ p q).trans ?_
  rw [shapeCast_self, shapeCast_self]

end Cert.KernelIdeal.Payload

end
-- ==== Proof.Blocks.lean ====
/-
  Where each window's block sits in its array.

  The grid has 8 × 3 × 6 points; point number  t  is (row block, column block, contraction block)
  = (t / 18, (t / 6) % 3, t % 6).  At that point the activations' window holds rows  2048·(t/18) + p  and columns
  512·(t%6) + k  of the activations; the weights' window rows  512·(t%6) + k  and columns  1024·((t/6)%3) + q  of the
  masked weights; the bias window columns  1024·((t/6)%3) + q  of the bias row; and the output window rows
  2048·(t/18) + p  and columns  1024·((t/6)%3) + q  of the result.
-/
import proofs.«137197_j25434796327643_2_alg».proof.Proof.Gen.KernelIdeal.Frame
import proofs.«137197_j25434796327643_2_alg».proof.Proof.BlockSum
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen MaskedGemm

variable (m : (ℓ : Loc nD τ sig) → Buf (Elt Ideal) ℓ)

/-- The block index of each window at point t, from the point's number. -/
theorem index_lhs : ∀ t : Fin cfg0.N, win0_0.index t 0 = t.val / 18 ∧ win0_0.index t 1 = t.val % 6 :=
  (by decide +kernel : ∀ t : Fin grid0.N, win0_0.index t 0 = t.val / 18 ∧ win0_0.index t 1 = t.val % 6)
theorem index_rhs : ∀ t : Fin cfg0.N, win0_1.index t 0 = t.val % 6 ∧ win0_1.index t 1 = (t.val / 6) % 3 :=
  (by decide +kernel : ∀ t : Fin grid0.N, win0_1.index t 0 = t.val % 6 ∧ win0_1.index t 1 = (t.val / 6) % 3)
theorem index_bias : ∀ t : Fin cfg0.N, win0_2.index t 0 = 0 ∧ win0_2.index t 1 = (t.val / 6) % 3 :=
  (by decide +kernel : ∀ t : Fin grid0.N, win0_2.index t 0 = 0 ∧ win0_2.index t 1 = (t.val / 6) % 3)
theorem index_out : ∀ t : Fin cfg0.N, win0_3.index t 0 = t.val / 18 ∧ win0_3.index t 1 = (t.val / 6) % 3 :=
  (by decide +kernel : ∀ t : Fin grid0.N, win0_3.index t 0 = t.val / 18 ∧ win0_3.index t 1 = (t.val / 6) % 3)

/-- The activations' block at point t, entry (p, k). -/
theorem lhs_block (c : Dev nD) (t : Fin cfg0.N) (p : Fin 2048) (k : Fin 512) :
    (iblk m c 0 t : Vec Ideal S2048x512 .f32) (ix2 p k)
      = at2 (n0 := 16384) (n1 := 3072) (V m c main_arg0) (2048 * (t.val / 18) + p.val) (512 * (t.val % 6) + k.val) := by
  have hN : t.val < 144 := lt_of_lt_of_eq t.isLt N_0
  rw [at2_of_lt _ _ _ (by omega) (by omega)]
  unfold iblk
  rw [View.read_apply]
  show V m c main_arg0 _ = V m c main_arg0 _
  refine congrArg (V m c main_arg0) (funext fun a => Fin.ext ?_)
  match a with
  | ⟨0, _⟩ => show win0_0.index t 0 * 2048 + 1 * p.val = 2048 * (t.val / 18) + p.val; rw [(index_lhs t).1]; omega
  | ⟨1, _⟩ => show win0_0.index t 1 * 512 + 1 * k.val = 512 * (t.val % 6) + k.val; rw [(index_lhs t).2]; omega

/-- The weights' block at point t, entry (k, q). -/
theorem rhs_block (c : Dev nD) (t : Fin cfg0.N) (k : Fin 512) (q : Fin 1024) :
    (iblk m c 1 t : Vec Ideal S512x1024 .bf16) (ix2 k q)
      = at2 (n0 := 3072) (n1 := 3072) (V m c main_v3) (512 * (t.val % 6) + k.val) (1024 * ((t.val / 6) % 3) + q.val) := by
  have hN : t.val < 144 := lt_of_lt_of_eq t.isLt N_0
  rw [at2_of_lt _ _ _ (by omega) (by omega)]
  unfold iblk
  rw [View.read_apply]
  show V m c main_v3 _ = V m c main_v3 _
  refine congrArg (V m c main_v3) (funext fun a => Fin.ext ?_)
  match a with
  | ⟨0, _⟩ => show win0_1.index t 0 * 512 + 1 * k.val = 512 * (t.val % 6) + k.val; rw [(index_rhs t).1]; omega
  | ⟨1, _⟩ => show win0_1.index t 1 * 1024 + 1 * q.val = 1024 * ((t.val / 6) % 3) + q.val; rw [(index_rhs t).2]; omega

/-- The bias window at point t, entry (0, q). -/
theorem bias_block (c : Dev nD) (t : Fin cfg0.N) (q : Fin 1024) :
    (iblk m c 2 t : Vec Ideal S1x1024 .f32) (ix2 (0 : Fin 1) q)
      = at2 (n0 := 1) (n1 := 3072) (V m c main_v4) 0 (1024 * ((t.val / 6) % 3) + q.val) := by
  have hN : t.val < 144 := lt_of_lt_of_eq t.isLt N_0
  rw [at2_of_lt _ _ _ (by omega) (by omega)]
  unfold iblk
  rw [View.read_apply]
  show V m c main_v4 _ = V m c main_v4 _
  refine congrArg (V m c main_v4) (funext fun a => Fin.ext ?_)
  match a with
  | ⟨0, _⟩ => show win0_2.index t 0 * 1 + 1 * 0 = 0; rw [(index_bias t).1]
  | ⟨1, _⟩ => show win0_2.index t 1 * 1024 + 1 * q.val = 1024 * ((t.val / 6) % 3) + q.val; rw [(index_bias t).2]; omega

end Cert.KernelIdeal.Blocks

end
-- ==== Proof.Accumulate.lean ====
/-
  What the accumulator holds after each grid point, and what the last point of a sweep writes into the output block.

  A sweep is six consecutive points  6·(t/6) … 6·(t/6) + 5  sharing a row block and a column block and running through
  the six contraction blocks.  The first point leaves  0 + (its block product), each later point adds its own block
  product to what the point before left; so after the point at offset  j  of its sweep the accumulator's entry is
  0 + Σ_{s ≤ j} (block product of point 6·(t/6) + s).  The sweep's last point also writes that entry plus the bias
  entry of its column into the output block.  Summing the six block products entry by entry gives the sum over the
  whole contraction axis.
-/
import proofs.«137197_j25434796327643_2_alg».proof.Proof.Gen.KernelIdeal.Value
import proofs.«137197_j25434796327643_2_alg».proof.Proof.BlockSum
import proofs.«137197_j25434796327643_2_alg».proof.Proof.Pieces
import proofs.«137197_j25434796327643_2_alg».proof.Proof.Payload
import proofs.«137197_j25434796327643_2_alg».proof.Proof.Blocks

noncomputable section

open Idealize.ShloMosaic Idealize.ShloMosaic.TcCoe Idealize.SL.Sem Idealize.ShloMosaic.ValueIdx

namespace Cert.KernelIdeal.Accumulate

open Cert.KernelIdeal Cert.KernelIdeal.Gen MaskedGemm
open Cert.KernelIdeal.Value (scAt0_0 soutsAt0_0_eq)

variable (m : (ℓ : Loc nD τ sig) → Buf (Elt Ideal) ℓ)

/-- The row and the column, in the result array, of entry y of the output block of point n. -/
def row (n : ℕ) (y : S2048x1024.Idx) : ℕ := 2048 * (n / 18) + (y 0).val
def col (n : ℕ) (y : S2048x1024.Idx) : ℕ := 1024 * ((n / 6) % 3) + (y 1).val

/-- The summand at contraction index k of the result's entry that sits at y in point n's output block. -/
def entryTerm (c : Dev nD) (n : ℕ) (y : S2048x1024.Idx) (k : ℕ) : EReal :=
  term (n0 := 16384) (n1 := 3072) (n2 := 3072) (V m c main_arg0) (V m c main_v3) (row n y) (col n y) k

/-- Point n's block product at block entry y: the summands of its contraction block  512·(n%6) … 512·(n%6) + 511. -/
def blockDot (c : Dev nD) (n : ℕ) (y : S2048x1024.Idx) : EReal :=
  ∑ k ∈ Finset.range 512, entryTerm m c n y (512 * (n % 6) + k)

/-- The product of the two blocks staged at point t, at entry (p, q), is that point's block product. -/
theorem dot_eq (c : Dev nD) (t : Fin cfg0.N) (p : Fin 2048) (q : Fin 1024)
    (a : Vec Ideal S2048x512 .f32) (w : Vec Ideal S512x1024 .bf16) (ha : a = iblk m c 0 t) (hw : w = iblk m c 1 t) :
    ∑ k : Fin 512, a (ix2 p k) * w (ix2 k q) = blockDot m c t.val (ix2 p q) := by
  subst ha hw
  unfold blockDot
  rw [Finset.sum_range]
  refine Finset.sum_congr rfl fun k _ => ?_
  rw [Blocks.lhs_block m c t p k, Blocks.rhs_block m c t k q]
  rfl

/-- A point that is not the first of its sweep adds its block product to what it found in the accumulator. -/
theorem step_apply (c : Dev nD) (n : ℕ) (hb : n < cfg0.N) (h0 : ¬n % 6 = 0) (acc : Vec Ideal S2048x1024 .f32)
    (y : S2048x1024.Idx) : scAt0_0 m c n hb acc y = acc y + blockDot m c n y := by
  obtain ⟨p, q, rfl⟩ : ∃ (p : Fin 2048) (q : Fin 1024), y = ix2 p q := ⟨y 0, y 1, eq_ix2 y⟩
  unfold scAt0_0
  rw [dif_neg h0]
  by_cases h1 : n % 6 = 5
  · rw [dif_pos h1]
    refine (congrFun (Pieces.acc_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _
      (iblk m c 0 ⟨n, hb⟩) (iblk m c 1 ⟨n, hb⟩) (iblk m c 2 ⟨n, hb⟩) acc) (ix2 p q)).trans ?_
    refine (Payload.accumulate_apply (iblk m c 0 ⟨n, hb⟩) acc (iblk m c 1 ⟨n, hb⟩) p q).trans ?_
    exact congrArg (acc (ix2 p q) + ·) (dot_eq m c ⟨n, hb⟩ p q _ _ rfl rfl)
  · rw [dif_neg h1]
    refine (congrFun (Pieces.acc_mid c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _
      (iblk m c 0 ⟨n, hb⟩) (iblk m c 1 ⟨n, hb⟩) (iblk m c 2 ⟨n, hb⟩) acc) (ix2 p q)).trans ?_
    refine (Payload.accumulate_apply (iblk m c 0 ⟨n, hb⟩) acc (iblk m c 1 ⟨n, hb⟩) p q).trans ?_
    exact congrArg (acc (ix2 p q) + ·) (dot_eq m c ⟨n, hb⟩ p q _ _ rfl rfl)

/-- The first point of a sweep leaves zero plus its block product, whatever the accumulator held. -/
theorem first_apply (c : Dev nD) (n : ℕ) (hb : n < cfg0.N) (h0 : n % 6 = 0) (acc : Vec Ideal S2048x1024 .f32)
    (y : S2048x1024.Idx) : scAt0_0 m c n hb acc y = 0 + blockDot m c n y := by
  obtain ⟨p, q, rfl⟩ : ∃ (p : Fin 2048) (q : Fin 1024), y = ix2 p q := ⟨y 0, y 1, eq_ix2 y⟩
  have h1 : ¬n % 6 = 5 := by omega
  unfold scAt0_0
  rw [dif_pos h0, dif_neg h1]
  refine (congrFun (Pieces.acc_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _
    (iblk m c 0 ⟨n, hb⟩) (iblk m c 1 ⟨n, hb⟩) (iblk m c 2 ⟨n, hb⟩)) (ix2 p q)).trans ?_
  refine (Payload.accumulate_apply (iblk m c 0 ⟨n, hb⟩) (k0_pay1 (F := Ideal)) (iblk m c 1 ⟨n, hb⟩) p q).trans ?_
  rw [Payload.cleared_apply, dot_eq m c ⟨n, hb⟩ p q _ _ rfl rfl]

/-- THE ACCUMULATOR after point t: zero plus the block products of its sweep's points up to t. -/
theorem acc_eq (c : Dev nD) (t : Fin cfg0.N) (y : S2048x1024.Idx) :
    (outsAt0 m c t.val t.isLt).2 y
      = 0 + ∑ s ∈ Finset.range (t.val % 6 + 1), blockDot m c (6 * (t.val / 6) + s) y := by
  rw [soutsAt0_0_eq m c t]
  exact Pipeline.accAt_add_apply (ι := S2048x1024.Idx) (β := EReal)
    (fun n h => scAt0_0 m c n h (VS0_0.read (Elt Ideal) VS0_0.junk)) (scAt0_0 m c) (fun _ => 0) (blockDot m c)
    (6 * (t.val / 6)) 5
    (fun h i => first_apply m c _ h (by omega) _ i)
    (fun n h acc i hlt hle => step_apply m c n h (by omega) acc i)
    (t.val % 6) (by omega) _ y

/-- Within the sweep of a point t, every point has t's row block and column block, and its own contraction block. -/
theorem blockDot_sweep (c : Dev nD) (t : ℕ) (y : S2048x1024.Idx) (s : ℕ) (hs : s < 6) :
    blockDot m c (6 * (t / 6) + s) y = ∑ k ∈ Finset.range 512, entryTerm m c t y (512 * s + k) := by
  unfold blockDot entryTerm row col
  rw [show (6 * (t / 6) + s) / 18 = t / 18 by omega, show ((6 * (t / 6) + s) / 6) % 3 = (t / 6) % 3 by omega,
    show (6 * (t / 6) + s) % 6 = s by omega]

/-- After the last point of a sweep the accumulator's entry is the sum over the whole contraction axis. -/
theorem acc_last_eq (c : Dev nD) (t : Fin cfg0.N) (h5 : t.val % 6 = 5) (y : S2048x1024.Idx) :
    (outsAt0 m c t.val t.isLt).2 y = ∑ k ∈ Finset.range 3072, entryTerm m c t.val y k := by
  rw [acc_eq m c t y, h5, zero_add, ← sum_six_blocks]
  exact Finset.sum_congr rfl fun s hs => blockDot_sweep m c t.val y s (Finset.mem_range.mp hs)

/-- WHAT THE LAST POINT OF A SWEEP WRITES into the output block at (p, q): the result's entry. -/
theorem out_eq (c : Dev nD) (t : Fin cfg0.N) (h0 : ¬t.val % 6 = 0) (h5 : t.val % 6 = 5) (y : S2048x1024.Idx) :
    (outsAt0 m c t.val t.isLt).1 y
      = (∑ k ∈ Finset.range 3072, entryTerm m c t.val y k)
        + at2 (n0 := 1) (n1 := 3072) (V m c main_v4) 0 (col t.val y) := by
  obtain ⟨p, q, rfl⟩ : ∃ (p : Fin 2048) (q : Fin 1024), y = ix2 p q := ⟨y 0, y 1, eq_ix2 y⟩
  rw [← acc_last_eq m c t h5 (ix2 p q), outsAt0_C m c t h0 h5]
  dsimp only
  refine (congrFun (Pieces.out_last c (grid0.coords t) (ms0_0 t) (hs0_0 t) (ms0_1 t) (hs0_1 t) (ms0_2 t) (hs0_2 t) (ms0_3 t) (hs0_3 t) scM0_0 (Memref.isWhole_whole _) _ _
    (iblk m c 0 t) (iblk m c 1 t) (iblk m c 2 t) _) (ix2 p q)).trans ?_
  refine (Payload.finish_apply (iblk m c 2 t) _ p q).trans ?_
  rw [Blocks.bias_block m c t q,
    Pieces.acc_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _]
  rfl

end Cert.KernelIdeal.Accumulate

end
-- ==== Proof.KernelValue.lean ====
/-
  The kernel's result array after the run is the specification, entry by entry.

  Only the last point of each sweep (the points  t ≡ 5 mod 6) writes its output block back, and what it writes at
  block entry (p, q) is the result's entry at row  2048·(t/18) + p  and column  1024·((t/6)%3) + q  — exactly where the
  output window puts that block entry in the array.  The 8 × 3 output blocks tile the 16384 × 3072 array: entry (r, u)
  lies in the block written at point  18·(r/2048) + 6·(u/1024) + 5.  So the whole array ends at the specification.
-/
import proofs.«137197_j25434796327643_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen MaskedGemm Cert.KernelIdeal.Accumulate

variable (m : (ℓ : Loc nD τ sig) → Buf (Elt Ideal) ℓ) (ρ : Dev nD → PrngReg)

/-- The specification at the arrays the grid finds: activations · masked weights + bias row. -/
def spec (c : Dev nD) : S16384x3072.Idx → Ideal .f32 :=
  result (n0 := 16384) (n1 := 3072) (n2 := 3072) (V m c main_arg0) (V m c main_v3) (V m c main_v4)

/-- What a sweep's last point writes back is its block of the specification. -/
theorem flushed_eq (c : Dev nD) (t : Fin cfg0.N) (hf : (cfg0.win 3).flush t = true) :
    (dats m 0 c).flushed 3 t = ((cfg0.win 3).blk t).view.read (Elt Ideal) (spec m c) := by
  have h5 : t.val % 6 = 5 := (flush0_3 t).mp hf
  have h0 : ¬t.val % 6 = 0 := by omega
  rw [Value.flushed3 m c t]
  funext y
  show (outsAt0 m c t.val t.isLt).1 y = spec m c (((cfg0.win 3).blk t).view.emb y)
  refine (out_eq m c t h0 h5 y).trans ?_
  have e0 : ((((cfg0.win 3).blk t).view.emb y) 0).val = row t.val y := by
    show win0_3.index t 0 * 2048 + 1 * (y 0).val = 2048 * (t.val / 18) + (y 0).val
    rw [(Blocks.index_out t).1]; omega
  have e1 : ((((cfg0.win 3).blk t).view.emb y) 1).val = col t.val y := by
    show win0_3.index t 1 * 1024 + 1 * (y 1).val = 1024 * ((t.val / 6) % 3) + (y 1).val
    rw [(Blocks.index_out t).2]; omega
  unfold spec result entryTerm
  rw [e0, e1]

/-- An index of the result array is in point t's output block iff each coordinate is in the block's range. -/
theorem mem_blk (t : Fin cfg0.N) (i : S16384x3072.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Every entry of the result array lies in the block some sweep's last point writes back. -/
theorem cover (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 144 := N_0
  obtain ⟨n, hn⟩ : ∃ n : ℕ, n = 18 * ((i 0).val / 2048) + 6 * ((i 1).val / 1024) + 5 := ⟨_, rfl⟩
  have hlt : n < cfg0.N := by rw [hN]; omega
  refine ⟨⟨n, hlt⟩, (flush0_3 ⟨n, hlt⟩).mpr (by show n % 6 = 5; omega), ?_⟩
  rw [mem_blk]
  obtain ⟨e0, e1⟩ := Blocks.index_out ⟨n, hlt⟩
  intro a
  match a with
  | ⟨0, _⟩ =>
    show win0_3.index ⟨n, hlt⟩ 0 * 2048 ≤ (i 0).val ∧ (i 0).val < win0_3.index ⟨n, hlt⟩ 0 * 2048 + 2048
    rw [e0]; show n / 18 * 2048 ≤ (i 0).val ∧ (i 0).val < n / 18 * 2048 + 2048; omega
  | ⟨1, _⟩ =>
    show win0_3.index ⟨n, hlt⟩ 1 * 1024 ≤ (i 1).val ∧ (i 1).val < win0_3.index ⟨n, hlt⟩ 1 * 1024 + 1024
    rw [e1]; show n / 6 % 3 * 1024 ≤ (i 1).val ∧ (i 1).val < n / 6 % 3 * 1024 + 1024; omega

/-- THE RESULT ARRAY after the run is the specification. -/
theorem final (c : Dev nD) : (dats m 0 c).arrAt 3 cfg0.N = spec m c :=
  (dats m 0 c).arrAt_eq_of_cover 3 (spec m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.HostSide.lean ====
/-
  The two arrays the host prepares before the grid runs, as functions of the arguments.

  The weights' window stages the masked weights  w(k, u) · float(mask(u, k))  (a transpose of the integer mask, its
  conversion to float, the entrywise product, and a change of float format, which is the identity over the extended
  reals); the bias window stages the bias as a one-row matrix.  Both are the very arrays the reference computes on
  its way: its masked weights, and its bias broadcast to one row.
-/
import proofs.«137197_j25434796327643_2_alg».proof.Proof.Gen.KernelIdeal.Frame
import proofs.«137197_j25434796327643_2_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ)

/-- The masked weights the grid finds are the reference's masked weights of the same arguments. -/
theorem masked_eq (c : Dev nD) :
    @Eq (S3072x3072.Idx → Ideal .bf16) (V m c main_v3)
      (Cert.ReferenceIdeal.Read.val_main_v2 (F := Ideal) (m ((c : Thread nD τ).loc main_arg1)) (m ((c : Thread nD τ).loc main_arg3))) := by
  have e : @Eq (S3072x3072.Idx → Ideal .bf16) (V m c main_v3)
      (truncf (F := Ideal) .bf16 (mulf (m ((c : Thread nD τ).loc main_arg1))
          (sitofp .f32 (transpose S3072x3072 [1, 0] (m ((c : Thread nD τ).loc main_arg3)) Facts₀.transposes_S3072x3072_S3072x3072_1_0)))
          Facts₀.bitsLt_bf16_f32) := by
    dsimp only [V, hostOps0]; after_results
  rw [e]
  rfl

/-- The bias row the grid finds is the reference's bias broadcast to one row. -/
theorem bias_eq (c : Dev nD) :
    @Eq (S1x3072.Idx → Ideal .f32) (V m c main_v4)
      (Cert.ReferenceIdeal.Read.val_main_v4 (F := Ideal) (m ((c : Thread nD τ).loc main_arg2))) := by
  have e : @Eq (S1x3072.Idx → Ideal .f32) (V m c main_v4)
      (shapeCast S1x3072 (m ((c : Thread nD τ).loc main_arg2)) Facts₀.shapeCasts_S3072_S1x3072) := by
    dsimp only [V, hostOps0]; after_results; rfl
  rw [e]
  funext j
  obtain ⟨u, q, rfl⟩ : ∃ (u : Fin 1) (q : Fin 3072), j = ix2 u q := ⟨j 0, j 1, eq_ix2 j⟩
  rw [shapeCast_a_1a_apply, Cert.ReferenceIdeal.Read.val_main_v4_apply]
  exact congrArg _ (funext fun d => match d with | ⟨0, _⟩ => rfl)

end Cert.KernelIdeal.HostSide

end
-- ==== Proof.RefValue.lean ====
/-
  The reference's result is the specification: entry (r, u) of  x · wm + bias,  with  wm  its masked weights
  w(k, u) · float(mask(u, k))  and the product's entry the sum over the whole contraction axis (the host's
  dot_general over the extended reals), plus the bias entry of column u.
-/
import proofs.«137197_j25434796327643_2_alg».proof.Proof.Gen.ReferenceIdeal.Read
import proofs.«137197_j25434796327643_2_alg».proof.Proof.BlockSum

noncomputable section

open Idealize.ShloMosaic Idealize.ShloMosaic.TcCoe Idealize.SL.Sem Idealize.ShloMosaic.ValueIdx

namespace Cert.ReferenceIdeal.RefValue

open Cert.ReferenceIdeal Cert.ReferenceIdeal.Read MaskedGemm

theorem result_eq (x0 : S16384x3072.Idx → Ideal .f32) (x1 : S3072x3072.Idx → Ideal .f32) (x2 : S3072.Idx → Ideal .f32)
    (x3 : S3072x3072.Idx → BitVec 32) :
    val_main_v6 (F := Ideal) x0 x1 x2 x3
      = result (n0 := 16384) (n1 := 3072) (n2 := 3072) x0 (val_main_v2 (F := Ideal) x1 x3) (val_main_v4 (F := Ideal) x2) := by
  funext i
  rw [val_main_v6_apply, val_main_v3_apply, val_main_v5_apply]
  unfold result
  have hi0 : (i 0).val < 16384 := (i 0).isLt
  have hi1 : (i 1).val < 3072 := (i 1).isLt
  refine congrArg₂ (· + ·) ?_ ?_
  · rw [Finset.sum_range]
    refine Finset.sum_congr rfl fun k _ => ?_
    unfold term
    rw [at2_of_lt _ _ _ hi0 k.isLt, at2_of_lt _ _ _ k.isLt hi1]
    exact congrArg₂ (· * ·)
      (congrArg x0 (funext fun a => match a with | ⟨0, _⟩ => rfl | ⟨1, _⟩ => rfl))
      (congrArg (val_main_v2 (F := Ideal) x1 x3) (funext fun a => match a with | ⟨0, _⟩ => rfl | ⟨1, _⟩ => rfl))
  · rw [at2_of_lt _ _ _ Nat.one_pos hi1]
    exact congrArg (val_main_v4 (F := Ideal) x2) (funext fun a => match a with | ⟨0, _⟩ => rfl | ⟨1, _⟩ => rfl)

end Cert.ReferenceIdeal.RefValue

end
-- ==== Proof.lean ====
/-
  A masked matrix product with bias, tiled over a grid, against the same product computed in one piece.

  Both programs first form the masked weights  wm(k, u) = w(k, u) · float(mask(u, k))  on the host.  The reference
  then returns  x · wm + b,  entry (r, u) being  Σ_{k < 3072} x(r, k) · wm(k, u) + b(u).  The kernel walks an
  8 × 3 × 6 grid of (row block, column block, contraction block): over the six contraction blocks of one output block
  it clears an accumulator, adds the 2048 × 512 by 512 × 1024 block products into it one after the other, and at the
  sixth writes accumulator plus bias row into the 2048 × 1024 output block.  Over the extended reals a change of float
  format is the identity and every product and sum is exact, so the accumulator ends at
  0 + Σ_{s < 6} Σ_{k < 512} x(r, 512 s + k) · wm(512 s + k, u),  which is the reference's sum regrouped; addition of
  extended reals is commutative and associative whatever the summands, so the regrouping needs no finiteness, and the
  precondition is not used.  The output blocks tile the result array, so the two results agree entry by entry.

  The three frames are the generated ones (the reference's is its generated run with the result dropped); the ideal
  pass rewrote nothing, so there is nothing to preserve.
-/
import proofs.«137197_j25434796327643_2_alg».proof.Defs
import proofs.«137197_j25434796327643_2_alg».proof.Proof.Gen.Kernel
import proofs.«137197_j25434796327643_2_alg».proof.Proof.Gen.Kernel.Frame
import proofs.«137197_j25434796327643_2_alg».proof.Proof.Gen.KernelIdeal
import proofs.«137197_j25434796327643_2_alg».proof.Proof.Gen.KernelIdeal.Frame
import proofs.«137197_j25434796327643_2_alg».proof.Proof.Gen.KernelIdeal.Value
import proofs.«137197_j25434796327643_2_alg».proof.Proof.Gen.ReferenceIdeal
import proofs.«137197_j25434796327643_2_alg».proof.Proof.Gen.ReferenceIdeal.Run
import proofs.«137197_j25434796327643_2_alg».proof.Proof.Gen.ReferenceIdeal.Read
import proofs.«137197_j25434796327643_2_alg».proof.Proof.Gen.Pre_finite_inputs
import proofs.«137197_j25434796327643_2_alg».proof.Proof.KernelValue
import proofs.«137197_j25434796327643_2_alg».proof.Proof.HostSide
import proofs.«137197_j25434796327643_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result on the kernel's arguments is the kernel's specification: the reference is the
    specification at its own masked weights and bias row, and those are the arrays the kernel's host side prepares. -/
theorem spec_eq (m : (ℓ : Loc Cert.KernelIdeal.nD Cert.KernelIdeal.τ Cert.KernelIdeal.sig) → Buf (Elt Ideal) ℓ)
    (c : Dev Cert.KernelIdeal.nD) :
    Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Final.spec m c := by
  rw [Cert.ReferenceIdeal.RefValue.result_eq]
  unfold Cert.KernelIdeal.Final.spec
  rw [Cert.KernelIdeal.HostSide.masked_eq m c, Cert.KernelIdeal.HostSide.bias_eq m c, Cert.KernelIdeal.Gen.V_main_arg0 m c]

/-- From memories that agree on the arguments, both runs end with the result array at the specification. -/
theorem algebraic : Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2]
  exact spec_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
